-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x64 : Shape := ⟨2, ![1000, 64]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_

variable [Facts]

def fn {F : FTy → Type} [FloatOps F] (main_arg0 : FVec F S16384x1000 .f32) (main_arg1 : FVec F S1000x64 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  main_v8
-- ==== Kernel.lean ====
abbrev S16384x1000 : Shape := ⟨2, ![16384, 1000]⟩
abbrev S1000x64 : Shape := ⟨2, ![1000, 64]⟩
abbrev S_ : Shape := ⟨0, ![]⟩
abbrev S1000x1 : Shape := ⟨2, ![1000, 1]⟩
abbrev S1000x65 : Shape := ⟨2, ![1000, 65]⟩
abbrev S16384x64 : Shape := ⟨2, ![16384, 64]⟩
abbrev S512x1000 : Shape := ⟨2, ![512, 1000]⟩
abbrev S2048x64 : Shape := ⟨2, ![2048, 64]⟩
abbrev S512x65 : Shape := ⟨2, ![512, 65]⟩
abbrev S512x64 : Shape := ⟨2, ![512, 64]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S_, .f32⟩
  | .hbm, ⟨3, _⟩ => ⟨S1000x1, .f32⟩
  | .hbm, ⟨4, _⟩ => ⟨S1000x65, .f32⟩
  | .hbm, ⟨5, _⟩ => ⟨S16384x64, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S1000x65, .f32⟩
  | .local _ .vmem, ⟨9, _⟩ => ⟨S2048x64, .f32⟩
  | .local _ .vmem, ⟨10, _⟩ => ⟨S2048x64, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000x1 : S_.BroadcastsInDim S1000x1 (![] : Fin 0 → Fin S1000x1.rank)
  concatenates_S1000x64_S1000x1_S1000x65_d1 : Shape.Concatenates [S1000x64, S1000x1] S1000x65 1
  inb_S1000x65_S1000x65_0_0 : ∀ a, (![0, 0] : Fin 2 → Nat) a + S1000x65.size a ≤ S1000x65.size a
  h_S1000x65 : 0 < S1000x65.numel
  shapeCasts_S1000x65_S1000x65 : S1000x65.ShapeCasts S1000x65
  inb_S512x1000_S512x1000_0_0 : ∀ a, (![0, 0] : Fin 2 → Nat) a + S512x1000.size a ≤ S512x1000.size a
  h_S512x1000 : 0 < S512x1000.numel
  natLt_1_32 : 1 < 32
  slices_S512x65_o0_0_S512x64 : S512x65.Slices ![0, 0] S512x64
  slices_S512x65_o0_64_S512x1 : S512x65.Slices ![0, 64] S512x1
  broadcasts_S512x1_S512x64 : S512x1.Broadcasts S512x64
  inb_S2048x64_S512x64_0_0 : ∀ a, (![0, 0] : Fin 2 → Nat) a + S512x64.size a ≤ S2048x64.size a
  h_S512x64 : 0 < S512x64.numel
  inb_S2048x64_S512x64_512_0 : ∀ a, (![512, 0] : Fin 2 → Nat) a + S512x64.size a ≤ S2048x64.size a
  inb_S2048x64_S512x64_1024_0 : ∀ a, (![1024, 0] : Fin 2 → Nat) a + S512x64.size a ≤ S2048x64.size a
  inb_S2048x64_S512x64_1536_0 : ∀ a, (![1536, 0] : Fin 2 → Nat) a + S512x64.size a ≤ S2048x64.size a
  dot_S512x1000_S1000x65_S512x65_1_0_0_1_n_n_wf : DotDims.WF S512x1000 S1000x65 S512x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S16384x1000.size a
  hwx0_1 : ∀ i : grid0.Coords, EltTy.bits .f32 = 32 ∨ (Rect.block (s := S16384x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S16384x1000.size a
  hwx0_2 : ∀ i : grid0.Coords, EltTy.bits .f32 = 32 ∨ (Rect.block (s := S16384x1000) S512x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x65.size a ≤ S1000x65.size a
  hwx0_4 : ∀ i : grid0.Coords, EltTy.bits .f32 = 32 ∨ (Rect.block (s := S1000x65) S1000x65.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)

variable [Facts₀]

def dot_S512x1000_S1000x65_S512x65_1_0_0_1_n_n : DotDims S512x1000 S1000x65 S512x65 where
  lhsContracting := [1]
  rhsContracting := [0]
  lhsNonContracting := [0]
  rhsNonContracting := [1]
  lhsBatch := []
  rhsBatch := []
  wf := dot_S512x1000_S1000x65_S512x65_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1000x65.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x64 : Shape := ⟨2, ![1000, 64]⟩
abbrev S_ : Shape := ⟨0, ![]⟩
abbrev S16384 : Shape := ⟨1, ![16384]⟩
abbrev S16384x1 : Shape := ⟨2, ![16384, 1]⟩
abbrev S16384x64 : Shape := ⟨2, ![16384, 64]⟩

abbrev nBuf : Space → Nat
  | .hbm => 22
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S_, .f32⟩
  | .hbm, ⟨3, _⟩ => ⟨S16384x1000, .f32⟩
  | .hbm, ⟨4, _⟩ => ⟨S16384x1000, .i1⟩
  | .hbm, ⟨5, _⟩ => ⟨S16384x1000, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S_, .f32⟩
  | .hbm, ⟨11, _⟩ => ⟨S16384x1, .f32⟩
  | .hbm, ⟨12, _⟩ => ⟨S16384x1, .i1⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .i1⟩
  | .hbm, ⟨21, _⟩ => ⟨S16384x64, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  dot_S16384x1000_S1000x64_S16384x64_1_0_0_1_n_n_wf : DotDims.WF S16384x1000 S1000x64 S16384x64 [1] [0] [0] [1] [] []

variable [Facts₀]

def dot_S16384x1000_S1000x64_S16384x64_1_0_0_1_n_n : DotDims S16384x1000 S1000x64 S16384x64 where
  lhsContracting := [1]
  rhsContracting := [0]
  lhsNonContracting := [0]
  rhsNonContracting := [1]
  lhsBatch := []
  rhsBatch := []
  wf := dot_S16384x1000_S1000x64_S16384x64_1_0_0_1_n_n_wf

class Facts : Prop extends Facts₀ where

variable [Facts]
-- ==== Proof.LibSharedFrame.lean ====
/-
  The frame run of a one-region kernel whose input windows may SHARE an array.

  A pallas_call may be handed one array through several input windows (the same operand under several index
  maps). The windows' arrays are then not pairwise distinct, and the array's full share has to be dealt among the
  windows on it. This module states the run once for such a kernel that names no semaphore, scratch buffer or
  generator register of its own: the region's invariant is what the core's scoped buffers other than the staging
  buffers yield (`hin`, `hout`), the unscoped buffers that are no window's array pass by the region unread, and
  the arrays' shares are dealt by the certificate (`hsplit`). The conclusion is the library's frame post: every
  window's array at what the proof data compute after the last write-back, every other unscoped buffer as the
  region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hsplit` deals the buffers behind the windows' arrays, each
    whole at the full share at the region-entry contents `V`, into the proof data's arrays at their shares. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The run of the kernel's program as printed: every weakly fair execution terminates, nothing faults, and the final memory is named.

  The program writes a column of ones beside the embedding table ([1000, 64] to [1000, 65]) and then runs ONE
  region on a grid of 8 points. Each point reads four consecutive 512-row blocks of the flags array — the same
  array handed to the kernel through four input windows whose block index is 4 t + j —, the whole augmented
  table, and writes one 2048-row block of the result: rows 512 j … 512 j + 511 of that block are computed from
  flag block j alone. Because four windows stand on one array, the array's full share is dealt among them in
  quarters; nothing writes it, so every window ends holding the launch contents. What the result's buffer holds
  after the body is the overlay of the four stores' values (they tile the buffer), a closed function of the five
  input blocks. Stated for any float instance.
-/
import proofs.«139413_g53163105190342_cont_9to1_m_607_18_alg».proof.Proof.Gen.Kernel.Launch
import proofs.«139413_g53163105190342_cont_9to1_m_607_18_alg».proof.Proof.Gen.Kernel.Skeleton
import proofs.«139413_g53163105190342_cont_9to1_m_607_18_alg».proof.Proof.Gen.Kernel.Points
import proofs.«139413_g53163105190342_cont_9to1_m_607_18_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Before the call the host writes the scalar one, a [1000, 1] column of ones, and the table with that column appended
([1000, 65]). The region finds every buffer at what those three operations leave. -/

/-- Core `c`'s TensorCore buffers when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of them writes the flags array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- Nor the embedding table. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. Windows 0–3 are 512 rows of the
    flags, rows `(4 t + w) · 512 …`; window 4 is the whole augmented table at every point; window 5 is 2048 rows of
    the result. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rFlags : Rect S512x1000 := Rect.unit (s := S512x1000) ![0, 0] S512x1000.size inb_S512x1000_S512x1000_0_0
abbrev rTable : Rect S1000x65 := Rect.unit (s := S1000x65) ![0, 0] S1000x65.size inb_S1000x65_S1000x65_0_0
abbrev rOut0 : Rect S2048x64 := Rect.unit (s := S2048x64) ![0, 0] S512x64.size inb_S2048x64_S512x64_0_0
abbrev rOut1 : Rect S2048x64 := Rect.unit (s := S2048x64) ![512, 0] S512x64.size inb_S2048x64_S512x64_512_0
abbrev rOut2 : Rect S2048x64 := Rect.unit (s := S2048x64) ![1024, 0] S512x64.size inb_S2048x64_S512x64_1024_0
abbrev rOut3 : Rect S2048x64 := Rect.unit (s := S2048x64) ![1536, 0] S512x64.size inb_S2048x64_S512x64_1536_0

/-! ## What the body leaves in the result window's buffer

Four stores, one per stream: rows `512 j … 512 j + 511` of the buffer take stream `j`'s quotient. Last store first. -/

def outBlock (x0 x1 x2 x3 : Vec F S512x1000 .f32) (e : Vec F S1000x65 .f32) : Vec F S2048x64 .f32 :=
  View.canon
    [⟨rOut3, k0_pay2 (k0_pay3 (View.ld e rTable)) (View.ld x3 rFlags)⟩,
     ⟨rOut2, k0_pay1 (k0_pay7 (View.ld e rTable) (View.ld x2 rFlags)) (k0_pay8 (View.ld e rTable) (View.ld x2 rFlags)) (Scalar.ofBits .f32 0x3F800000#32)⟩,
     ⟨rOut1, k0_pay5 (View.ld e rTable) (View.ld x1 rFlags)⟩,
     ⟨rOut0, k0_pay4 (View.ld e rTable) (View.ld x0 rFlags)⟩]

/-- The four row bands tile the buffer. -/
theorem outCover (p0 p1 p2 p3 : Vec F S512x64 .f32) (y : S2048x64.Idx) :
    ∃ pc ∈ ([⟨rOut3, p3⟩, ⟨rOut2, p2⟩, ⟨rOut1, p1⟩, ⟨rOut0, p0⟩] : List (View.Piece (Elt F) S2048x64 .f32)), y ∈ pc.1.set :=
  View.cover_of_tiled [⟨rOut3, p3⟩, ⟨rOut2, p2⟩, ⟨rOut1, p1⟩, ⟨rOut0, p0⟩] S512x64.size (by rfl) y

/-! ## The body's triple -/

set_option maxHeartbeats 4000000 in
/-- The kernel body on whole staging memrefs — the five inputs' at contents `x0 … x3`, `e`, the result's at anything —
    runs to the continuation with the inputs' as they were and the result's at `outBlock`. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S1000x65 .f32) (harg5 : arg5.IsWhole) (arg6 : Memref sig .tc .vmem S2048x64 .f32) (harg6 : arg6.IsWhole)
    (x0 x1 x2 x3 : Vec F S512x1000 .f32) (e : Vec F S1000x65 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlock x0 x1 x2 x3 e)) -∗ K ⟨⟩))
      ⊢ wp frame (wpE (defs₀ (F := F)) Variants.none c none) E (cc0__fbe_block i arg1 harg1 arg2 harg2 arg3 harg3 arg4 harg4 arg5 harg5 arg6 harg6) K := by
  simp only [cc0__fbe_block_eq_skeleton]; unfold cc0__fbe_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

/-! ## The proof data

The flags array is handed to the kernel through four input windows. Its full share is dealt among them in four
quarters; the table's and the result's arrays are held whole. After the body every input buffer still holds its
block and the result's buffer holds `outBlock` of the five input blocks. The kernel has no scratch: the invariant is
the (empty) rest of the core's scoped buffers. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays' shares at the region's entry

Three buffers stand behind the six windows' arrays. The flags array's full share splits into halves and each half
into halves again, one quarter per flag window; the table and the result are held whole. -/

theorem arrays_of_arrBufs (c : Dev nD) :
    (Pipeline.arrBufs spec0 c (V m c) : sProp 𝕄) ⊢ (dats m 0 c).arrays ((dats m 0 c).arrAt · 0) := by
  have hA : (dats m 0 c).arrays ((dats m 0 c).arrAt · 0)
      = (bigSep Finset.univ fun w : Fin 6 =>
          ((((c : Thread nD τ).loc (Pipeline.arrRef spec0 w)) ↦{(dats m 0 c).share w} V m c (Pipeline.arrRef spec0 w)) : sProp 𝕄)) := by
    unfold Dat.arrays
    exact bigSep_congr fun w _ => by rw [(arr_whole0 w).set_eq_univ]; rfl
  rw [hA, bigSep_W0]
  unfold Pipeline.arrBufs
  rw [show Finset.univ.image (Pipeline.arrRef spec0) = insert main_arg0 (insert main_v1 {main_v2}) from by decide,
    bigSep_insert (by decide), bigSep_insert (by decide), bigSep_singleton]
  show iprop((((c : Thread nD τ).loc main_arg0) ↦{fullShare} V m c main_arg0) ∗ (((c : Thread nD τ).loc main_v1) ↦{fullShare} V m c main_v1)
      ∗ (((c : Thread nD τ).loc main_v2) ↦{fullShare} V m c main_v2)) ⊢ _
  iintro ⟨H0, H1, H2⟩
  ihave H0' := (pointsTo_share (PosShare.mem_left_op_right fullShare)).1 $$ H0
  icases H0' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hll]; · iexact Hll
  isplitl [Hlr]; · iexact Hlr
  isplitl [Hrl]; · iexact Hrl
  isplitl [Hrr]; · iexact Hrr
  isplitl [H1]; · iexact H1
  iexact H2

/-! ## The run and the frame -/

set_option backward.isDefEq.respectTransparency.types false in
/-- Every weakly fair execution of the program terminates, and the final state has every window's array at what the
    proof data compute after the last write-back and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_of_arrBufs m) (hin := fun _ => .rfl) (hout := fun _ => .rfl)

/-- The two argument arrays end as launched: the flags array is an input window's array, the embedding table is no
    window's array and passes by the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c)⟩) (run_main m ρ)

/-- info: 'Cert.Kernel.Hand.run_main' depends on axioms: [propext, Classical.choice, Quot.sound] -/
#guard_msgs in #print axioms run_main
/-- info: 'Cert.Kernel.Hand.frame' depends on axioms: [propext, Classical.choice, Quot.sound] -/
#guard_msgs in #print axioms frame

end Cert.Kernel.Hand

end
-- ==== Proof.KernelIdealFrame.lean ====
/-
  The run of the idealized kernel's program: every weakly fair execution terminates, nothing faults, and the final memory is named.

  The program writes a column of ones beside the embedding table ([1000, 64] to [1000, 65]) and then runs ONE
  region on a grid of 8 points. Each point reads four consecutive 512-row blocks of the flags array — the same
  array handed to the kernel through four input windows whose block index is 4 t + j —, the whole augmented
  table, and writes one 2048-row block of the result: rows 512 j … 512 j + 511 of that block are computed from
  flag block j alone. Because four windows stand on one array, the array's full share is dealt among them in
  quarters; nothing writes it, so every window ends holding the launch contents. What the result's buffer holds
  after the body is the overlay of the four stores' values (they tile the buffer), a closed function of the five
  input blocks. Stated for any float instance.
-/
import proofs.«139413_g53163105190342_cont_9to1_m_607_18_alg».proof.Proof.Gen.KernelIdeal.Launch
import proofs.«139413_g53163105190342_cont_9to1_m_607_18_alg».proof.Proof.Gen.KernelIdeal.Skeleton
import proofs.«139413_g53163105190342_cont_9to1_m_607_18_alg».proof.Proof.Gen.KernelIdeal.Points
import proofs.«139413_g53163105190342_cont_9to1_m_607_18_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Before the call the host writes the scalar one, a [1000, 1] column of ones, and the table with that column appended
([1000, 65]). The region finds every buffer at what those three operations leave. -/

/-- Core `c`'s TensorCore buffers when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of them writes the flags array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- Nor the embedding table. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. Windows 0–3 are 512 rows of the
    flags, rows `(4 t + w) · 512 …`; window 4 is the whole augmented table at every point; window 5 is 2048 rows of
    the result. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rFlags : Rect S512x1000 := Rect.unit (s := S512x1000) ![0, 0] S512x1000.size inb_S512x1000_S512x1000_0_0
abbrev rTable : Rect S1000x65 := Rect.unit (s := S1000x65) ![0, 0] S1000x65.size inb_S1000x65_S1000x65_0_0
abbrev rOut0 : Rect S2048x64 := Rect.unit (s := S2048x64) ![0, 0] S512x64.size inb_S2048x64_S512x64_0_0
abbrev rOut1 : Rect S2048x64 := Rect.unit (s := S2048x64) ![512, 0] S512x64.size inb_S2048x64_S512x64_512_0
abbrev rOut2 : Rect S2048x64 := Rect.unit (s := S2048x64) ![1024, 0] S512x64.size inb_S2048x64_S512x64_1024_0
abbrev rOut3 : Rect S2048x64 := Rect.unit (s := S2048x64) ![1536, 0] S512x64.size inb_S2048x64_S512x64_1536_0

/-! ## What the body leaves in the result window's buffer

Four stores, one per stream: rows `512 j … 512 j + 511` of the buffer take stream `j`'s quotient. Last store first. -/

def outBlock (x0 x1 x2 x3 : Vec F S512x1000 .f32) (e : Vec F S1000x65 .f32) : Vec F S2048x64 .f32 :=
  View.canon
    [⟨rOut3, k0_pay2 (k0_pay3 (View.ld e rTable)) (View.ld x3 rFlags)⟩,
     ⟨rOut2, k0_pay1 (k0_pay7 (View.ld e rTable) (View.ld x2 rFlags)) (k0_pay8 (View.ld e rTable) (View.ld x2 rFlags)) (Scalar.ofBits .f32 0x3F800000#32)⟩,
     ⟨rOut1, k0_pay5 (View.ld e rTable) (View.ld x1 rFlags)⟩,
     ⟨rOut0, k0_pay4 (View.ld e rTable) (View.ld x0 rFlags)⟩]

/-- The four row bands tile the buffer. -/
theorem outCover (p0 p1 p2 p3 : Vec F S512x64 .f32) (y : S2048x64.Idx) :
    ∃ pc ∈ ([⟨rOut3, p3⟩, ⟨rOut2, p2⟩, ⟨rOut1, p1⟩, ⟨rOut0, p0⟩] : List (View.Piece (Elt F) S2048x64 .f32)), y ∈ pc.1.set :=
  View.cover_of_tiled [⟨rOut3, p3⟩, ⟨rOut2, p2⟩, ⟨rOut1, p1⟩, ⟨rOut0, p0⟩] S512x64.size (by rfl) y

/-! ## The body's triple -/

set_option maxHeartbeats 4000000 in
/-- The kernel body on whole staging memrefs — the five inputs' at contents `x0 … x3`, `e`, the result's at anything —
    runs to the continuation with the inputs' as they were and the result's at `outBlock`. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S1000x65 .f32) (harg5 : arg5.IsWhole) (arg6 : Memref sig .tc .vmem S2048x64 .f32) (harg6 : arg6.IsWhole)
    (x0 x1 x2 x3 : Vec F S512x1000 .f32) (e : Vec F S1000x65 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlock x0 x1 x2 x3 e)) -∗ K ⟨⟩))
      ⊢ wp frame (wpE (defs₀ (F := F)) Variants.none c none) E (cc0__fbe_block i arg1 harg1 arg2 harg2 arg3 harg3 arg4 harg4 arg5 harg5 arg6 harg6) K := by
  simp only [cc0__fbe_block_eq_skeleton]; unfold cc0__fbe_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

/-! ## The proof data

The flags array is handed to the kernel through four input windows. Its full share is dealt among them in four
quarters; the table's and the result's arrays are held whole. After the body every input buffer still holds its
block and the result's buffer holds `outBlock` of the five input blocks. The kernel has no scratch: the invariant is
the (empty) rest of the core's scoped buffers. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays' shares at the region's entry

Three buffers stand behind the six windows' arrays. The flags array's full share splits into halves and each half
into halves again, one quarter per flag window; the table and the result are held whole. -/

theorem arrays_of_arrBufs (c : Dev nD) :
    (Pipeline.arrBufs spec0 c (V m c) : sProp 𝕄) ⊢ (dats m 0 c).arrays ((dats m 0 c).arrAt · 0) := by
  have hA : (dats m 0 c).arrays ((dats m 0 c).arrAt · 0)
      = (bigSep Finset.univ fun w : Fin 6 =>
          ((((c : Thread nD τ).loc (Pipeline.arrRef spec0 w)) ↦{(dats m 0 c).share w} V m c (Pipeline.arrRef spec0 w)) : sProp 𝕄)) := by
    unfold Dat.arrays
    exact bigSep_congr fun w _ => by rw [(arr_whole0 w).set_eq_univ]; rfl
  rw [hA, bigSep_W0]
  unfold Pipeline.arrBufs
  rw [show Finset.univ.image (Pipeline.arrRef spec0) = insert main_arg0 (insert main_v1 {main_v2}) from by decide,
    bigSep_insert (by decide), bigSep_insert (by decide), bigSep_singleton]
  show iprop((((c : Thread nD τ).loc main_arg0) ↦{fullShare} V m c main_arg0) ∗ (((c : Thread nD τ).loc main_v1) ↦{fullShare} V m c main_v1)
      ∗ (((c : Thread nD τ).loc main_v2) ↦{fullShare} V m c main_v2)) ⊢ _
  iintro ⟨H0, H1, H2⟩
  ihave H0' := (pointsTo_share (PosShare.mem_left_op_right fullShare)).1 $$ H0
  icases H0' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hll]; · iexact Hll
  isplitl [Hlr]; · iexact Hlr
  isplitl [Hrl]; · iexact Hrl
  isplitl [Hrr]; · iexact Hrr
  isplitl [H1]; · iexact H1
  iexact H2

/-! ## The run and the frame -/

set_option backward.isDefEq.respectTransparency.types false in
/-- Every weakly fair execution of the program terminates, and the final state has every window's array at what the
    proof data compute after the last write-back and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_of_arrBufs m) (hin := fun _ => .rfl) (hout := fun _ => .rfl)

/-- The two argument arrays end as launched: the flags array is an input window's array, the embedding table is no
    window's array and passes by the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c)⟩) (run_main m ρ)

/-- info: 'Cert.KernelIdeal.Hand.run_main' depends on axioms: [propext, Classical.choice, Quot.sound] -/
#guard_msgs in #print axioms run_main
/-- info: 'Cert.KernelIdeal.Hand.frame' depends on axioms: [propext, Classical.choice, Quot.sound] -/
#guard_msgs in #print axioms frame

end Cert.KernelIdeal.Hand

end
-- ==== Proof.Spec.lean ====
/-
  The mean of the selected rows, on the extended reals.

  For a row of flags `x k` and a table `e k`, the programs compute the weights `μ (x k)` — one where the flag exceeds
  one half, zero elsewhere —, their count `∑ μ (x k)`, the weighted sum `∑ μ (x k) · e k` and the quotient of the sum
  by `max count 1`. One program returns the quotient as it is; the other returns zero where the count is not
  positive. The two agree: a sum of zeros and ones that is not positive has every term zero, so the weighted sum is
  zero too, and zero over one is zero. No finiteness of the table is needed: zero times anything is zero on the
  extended reals.
-/
import Idealize.ShloMosaic.PureOps.Ideal.Laws
import Idealize.ShloMosaic.Lib.ValueIdx

noncomputable section

namespace Cert.Spec

open Idealize.ShloMosaic

/-- The f32 pattern of `1.0` denotes one. -/
theorem one_eq : Ideal.ofBits .f32 0x3F800000#32 = 1 := by
  simp [Ideal.ofBits, Ideal.ieee, -EReal.coe_mul]; norm_num

/-- The threshold: the f32 pattern of `0.5`, kept as written (both programs spell the same word). -/
def half : EReal := Ideal.ofBits .f32 0x3F000000#32

/-- The weight of a flag: one above the threshold, zero otherwise. -/
def μ (x : EReal) : EReal := if half < x then 1 else 0

theorem μ_nonneg (x : EReal) : 0 ≤ μ x := by
  unfold μ; split <;> simp

/-- The comparison's bit, widened to a word and read as a signed integer, is the weight. -/
theorem sitofp_extui_cmp (x : EReal) :
    FloatOps.sitofp (F := Ideal) .f32 ((FloatOps.cmpf (F := Ideal) (φ := .f32) .ogt x half).setWidth 32) = μ x := by
  show (((((Ideal.cmp .ogt x half).setWidth 32).toInt : ℤ) : ℝ) : EReal) = μ x
  unfold μ Ideal.cmp
  by_cases h : half < x
  · simp [h]
  · simp [h]

/-- The comparison's bit read as an unsigned integer is the weight too. -/
theorem uitofp_cmp (x : EReal) :
    FloatOps.uitofp (F := Ideal) .f32 (FloatOps.cmpf (F := Ideal) (φ := .f32) .ogt x half) = μ x := by
  show ((((Ideal.cmp .ogt x half).toNat : ℕ) : ℝ) : EReal) = μ x
  unfold μ Ideal.cmp
  by_cases h : half < x
  · simp [h]
  · simp [h]

/-- A sum of weights that is not positive has every weight zero. -/
theorem μ_eq_zero_of_sum {n : ℕ} (x : Fin n → EReal) (h : ¬ 0 < ∑ k, μ (x k)) (k : Fin n) : μ (x k) = 0 := by
  have h0 : ∑ k, μ (x k) = 0 := le_antisymm (not_lt.mp h) (Finset.sum_nonneg fun k _ => μ_nonneg (x k))
  exact (Finset.sum_eq_zero_iff_of_nonneg fun k _ => μ_nonneg (x k)).mp h0 k (Finset.mem_univ k)

/-- The quotient of the weighted sum by the clamped count. -/
def mean {n : ℕ} (x e : Fin n → EReal) : EReal :=
  Ideal.div (∑ k, μ (x k) * e k) (max (∑ k, μ (x k)) 1)

/-- Returning zero where no flag is set changes nothing: there the quotient is zero already. -/
theorem where_pos_eq_mean {n : ℕ} (x e : Fin n → EReal) :
    (if 0 < ∑ k, μ (x k) then mean x e else 0) = mean x e := by
  by_cases h : 0 < ∑ k, μ (x k)
  · rw [if_pos h]
  · rw [if_neg h]
    have hz : ∀ k, μ (x k) = 0 := μ_eq_zero_of_sum x h
    unfold mean
    simp only [hz, zero_mul, Finset.sum_const_zero]
    unfold Ideal.div
    rw [if_neg (by simp)]
    simp

/-- The result as ONE function of the two arrays: entry (R, q) is the mean, over the flags of row R that exceed one
    half, of column q of the table (zero where no flag does). -/
def G (flags : (⟨2, ![16384, 1000]⟩ : Shape).Idx → EReal) (emb : (⟨2, ![1000, 64]⟩ : Shape).Idx → EReal) :
    (⟨2, ![16384, 64]⟩ : Shape).Idx → EReal := fun i =>
  mean (fun k : Fin 1000 => flags (ValueIdx.ix2 (⟨(i 0).val, ValueIdx.idx2_lt0 i⟩ : Fin 16384) k))
    (fun k : Fin 1000 => emb (ValueIdx.ix2 k (⟨(i 1).val, ValueIdx.idx2_lt1 i⟩ : Fin 64)))

theorem G_apply (flags : (⟨2, ![16384, 1000]⟩ : Shape).Idx → EReal) (emb : (⟨2, ![1000, 64]⟩ : Shape).Idx → EReal)
    (R : Fin 16384) (q : Fin 64) :
    G flags emb (ValueIdx.ix2 R q)
      = mean (fun k : Fin 1000 => flags (ValueIdx.ix2 R k)) (fun k : Fin 1000 => emb (ValueIdx.ix2 k q)) := rfl

end Cert.Spec

end
-- ==== Proof.StreamValue.lean ====
/-
  One stream's quotient at an entry.

  The body treats its four flag blocks alike: the 0/1 weights of a [512, 1000] block times the augmented table
  [1000, 65] give, in column c < 64, the weighted sums of table column c, and in column 64 — the column of ones — the
  count of the weights; the stored value at (r, q) is the sum in column q over the count clamped at one. Here the
  four stored values are shown to be one function of (table, block), and that function is read at an entry as sums
  over the 1000 flags of the row.
-/
import proofs.«139413_g53163105190342_cont_9to1_m_607_18_alg».proof.Proof.Gen.KernelIdeal.Skeleton
import proofs.«139413_g53163105190342_cont_9to1_m_607_18_alg».proof.Proof.Spec
import Idealize.ShloMosaic.Lib.Pipeline.Value
import Idealize.ShloMosaic.Lib.ValueIdx
import Idealize.ShloMosaic.PureOps.Ideal.Laws

noncomputable section

namespace Cert.KernelIdeal.Stream

open Cert.KernelIdeal Cert.KernelIdeal.Gen Idealize.ShloMosaic Idealize.ShloMosaic.ValueIdx Cert.Spec

/-! ## The matrix product's operand indices -/

theorem lhs_row (i : S512x65.Idx) (q : dot_S512x1000_S1000x65_S512x65_1_0_0_1_n_n.contr.Idx) : (dot_S512x1000_S1000x65_S512x65_1_0_0_1_n_n.lhsIdx i q 0).val = (i 0).val := by
  unfold DotDims.lhsIdx
  rw [dif_neg (show ¬(0 : Fin S512x1000.rank) ∈ dot_S512x1000_S1000x65_S512x65_1_0_0_1_n_n.lhsBatch by decide), dif_pos (show (0 : Fin S512x1000.rank) ∈ dot_S512x1000_S1000x65_S512x65_1_0_0_1_n_n.lhsNonContracting by decide)]
  rfl
theorem lhs_col (i : S512x65.Idx) (q : dot_S512x1000_S1000x65_S512x65_1_0_0_1_n_n.contr.Idx) : (dot_S512x1000_S1000x65_S512x65_1_0_0_1_n_n.lhsIdx i q 1).val = (q ⟨0, by decide⟩).val :=
  dot_S512x1000_S1000x65_S512x65_1_0_0_1_n_n.lhsIdx_val_of_single rfl i q
theorem rhs_row (i : S512x65.Idx) (q : dot_S512x1000_S1000x65_S512x65_1_0_0_1_n_n.contr.Idx) : (dot_S512x1000_S1000x65_S512x65_1_0_0_1_n_n.rhsIdx i q 0).val = (q ⟨0, by decide⟩).val :=
  dot_S512x1000_S1000x65_S512x65_1_0_0_1_n_n.rhsIdx_val_of_single rfl i q
theorem rhs_col (i : S512x65.Idx) (q : dot_S512x1000_S1000x65_S512x65_1_0_0_1_n_n.contr.Idx) : (dot_S512x1000_S1000x65_S512x65_1_0_0_1_n_n.rhsIdx i q 1).val = (i 1).val := by
  unfold DotDims.rhsIdx
  rw [dif_neg (show ¬(1 : Fin S1000x65.rank) ∈ dot_S512x1000_S1000x65_S512x65_1_0_0_1_n_n.rhsBatch by decide), dif_pos (show (1 : Fin S1000x65.rank) ∈ dot_S512x1000_S1000x65_S512x65_1_0_0_1_n_n.rhsNonContracting by decide)]
  rfl

/-- The product into a zero accumulator at (r, c): the sum over the contracted axis. -/
theorem prod_apply (l : FVec Ideal S512x1000 .f32) (t : FVec Ideal S1000x65 .f32) (r : Fin 512) (c : Fin 65) :
    matmul dot_S512x1000_S1000x65_S512x65_1_0_0_1_n_n none l t (constant S512x65 .f32 0x00000000#32) (ix2 r c) = ∑ k : Fin 1000, l (ix2 r k) * t (ix2 k c) := by
  simp only [matmul]
  rw [Ideal.matmul_constant_zero_apply, ← Equiv.sum_comp (contrEquiv1 dot_S512x1000_S1000x65_S512x65_1_0_0_1_n_n 1000 rfl rfl).symm]
  refine Finset.sum_congr rfl fun k _ => ?_
  have hk := contrEquiv1_symm_val dot_S512x1000_S1000x65_S512x65_1_0_0_1_n_n 1000 rfl rfl k
  have el : dot_S512x1000_S1000x65_S512x65_1_0_0_1_n_n.lhsIdx (ix2 r c) ((contrEquiv1 dot_S512x1000_S1000x65_S512x65_1_0_0_1_n_n 1000 rfl rfl).symm k) = ix2 r k := funext fun a => Fin.ext (by
    match a with
    | ⟨0, _⟩ => exact lhs_row _ _
    | ⟨1, _⟩ => exact (lhs_col _ _).trans hk)
  have er : dot_S512x1000_S1000x65_S512x65_1_0_0_1_n_n.rhsIdx (ix2 r c) ((contrEquiv1 dot_S512x1000_S1000x65_S512x65_1_0_0_1_n_n 1000 rfl rfl).symm k) = ix2 k c := funext fun a => Fin.ext (by
    match a with
    | ⟨0, _⟩ => exact (rhs_row _ _).trans hk
    | ⟨1, _⟩ => exact rhs_col _ _)
  rw [el, er]

/-! ## The four stored values are one function -/

/-- The weights of a block times the table: sums in columns 0–63, the count in column 64. -/
def acc (e : Vec Ideal S1000x65 .f32) (x : Vec Ideal S512x1000 .f32) : FVec Ideal S512x65 .f32 :=
  matmul dot_S512x1000_S1000x65_S512x65_1_0_0_1_n_n none
    (sitofp .f32 (extui 32 (cmpf (F := Ideal) .ogt x (broadcast S512x1000 (Scalar.ofBits .f32 0x3F000000#32))) natLt_1_32))
    (k0_pay3 e) (constant S512x65 .f32 0x00000000#32)

/-- The sums over the clamped count. -/
def quot (e : Vec Ideal S1000x65 .f32) (x : Vec Ideal S512x1000 .f32) : FVec Ideal S512x64 .f32 :=
  divf (extractStridedSlice S512x64 ![0, 0] (acc e x) slices_S512x65_o0_0_S512x64)
    (broadcastTo S512x64
      (maximumf (extractStridedSlice S512x1 ![0, 64] (acc e x) slices_S512x65_o0_64_S512x1)
        (broadcast S512x1 (Scalar.ofBits .f32 0x3F800000#32)))
      broadcasts_S512x1_S512x64)

theorem pay4_eq (e : Vec Ideal S1000x65 .f32) (x : Vec Ideal S512x1000 .f32) : k0_pay4 e x = quot e x := rfl
theorem pay5_eq (e : Vec Ideal S1000x65 .f32) (x : Vec Ideal S512x1000 .f32) : k0_pay5 e x = quot e x := rfl
theorem pay1_eq (e : Vec Ideal S1000x65 .f32) (x : Vec Ideal S512x1000 .f32) :
    k0_pay1 (k0_pay7 e x) (k0_pay8 e x) (Scalar.ofBits .f32 0x3F800000#32) = quot e x := rfl
theorem pay2_eq (e : Vec Ideal S1000x65 .f32) (x : Vec Ideal S512x1000 .f32) : k0_pay2 (k0_pay3 e) x = quot e x := rfl

/-! ## Read at an entry -/

/-- The accumulator at (r, c): the weighted sum of table column c over the row's flags. -/
theorem acc_apply (e : Vec Ideal S1000x65 .f32) (x : Vec Ideal S512x1000 .f32) (r : Fin 512) (c : Fin 65) :
    acc e x (ix2 r c) = ∑ k : Fin 1000, μ (x (ix2 r k)) * e (ix2 k c) := by
  unfold acc
  rw [prod_apply]
  refine Finset.sum_congr rfl fun k _ => ?_
  have hw : (sitofp .f32 (extui 32 (cmpf (F := Ideal) .ogt x (broadcast S512x1000 (Scalar.ofBits .f32 0x3F000000#32))) natLt_1_32) : FVec Ideal S512x1000 .f32) (ix2 r k)
      = μ (x (ix2 r k)) := sitofp_extui_cmp (x (ix2 r k))
  have ht : k0_pay3 e = e := shapeCast_self e shapeCasts_S1000x65_S1000x65
  rw [hw, ht]

/-- The stored value at (r, q). -/
theorem quot_apply (e : Vec Ideal S1000x65 .f32) (x : Vec Ideal S512x1000 .f32) (r : Fin 512) (q : Fin 64) :
    quot e x (ix2 r q)
      = Ideal.div (∑ k : Fin 1000, μ (x (ix2 r k)) * e (ix2 k (⟨q.val, by omega⟩ : Fin 65)))
          (max (∑ k : Fin 1000, μ (x (ix2 r k)) * e (ix2 k (⟨64, by decide⟩ : Fin 65))) 1) := by
  unfold quot
  have h1 : extractStridedSlice S512x64 ![0, 0] (acc e x) slices_S512x65_o0_0_S512x64 (ix2 r q) = acc e x (ix2 r (⟨q.val, by omega⟩ : Fin 65)) :=
    extractStridedSlice_apply _ _ _ (ix2 r q) (ix2 r (⟨q.val, by omega⟩ : Fin 65)) (fun a => by
      match a with
      | ⟨0, _⟩ => show r.val = 0 + r.val; omega
      | ⟨1, _⟩ => show q.val = 0 + q.val; omega)
  have h2 : extractStridedSlice S512x1 ![0, 64] (acc e x) slices_S512x65_o0_64_S512x1 (ix2 r (0 : Fin 1)) = acc e x (ix2 r (⟨64, by decide⟩ : Fin 65)) :=
    extractStridedSlice_apply _ _ _ (ix2 r (0 : Fin 1)) (ix2 r (⟨64, by decide⟩ : Fin 65)) (fun a => by
      match a with
      | ⟨0, _⟩ => show r.val = 0 + r.val; omega
      | ⟨1, _⟩ => show 64 = 64 + 0; rfl)
  have h3 : broadcastTo S512x64
      (maximumf (extractStridedSlice S512x1 ![0, 64] (acc e x) slices_S512x65_o0_64_S512x1)
        (broadcast S512x1 (Scalar.ofBits .f32 0x3F800000#32))) broadcasts_S512x1_S512x64 (ix2 r q)
      = max (acc e x (ix2 r (⟨64, by decide⟩ : Fin 65))) 1 := by
    refine (broadcastTo_apply _ _ (ix2 r q) (ix2 r (0 : Fin 1)) (fun a => by
      match a with
      | ⟨0, _⟩ => show r.val = if (512 : Nat) = 1 then 0 else r.val; rw [if_neg (by decide)]
      | ⟨1, _⟩ => show 0 = if (1 : Nat) = 1 then 0 else q.val; rw [if_pos rfl])).trans ?_
    show max (extractStridedSlice S512x1 ![0, 64] (acc e x) slices_S512x65_o0_64_S512x1 (ix2 r (0 : Fin 1))) (Ideal.ofBits .f32 0x3F800000#32) = _
    rw [h2, one_eq]
  show Ideal.div (extractStridedSlice S512x64 ![0, 0] (acc e x) slices_S512x65_o0_0_S512x64 (ix2 r q)) _ = _
  rw [h1, h3, acc_apply, acc_apply]

/-- With the block's row r being row R of the flags array, and the table block being the table with a column of ones
    appended, the stored value at (r, q) is the specification at (R, q): the count column contributes `μ · 1 = μ`. -/
theorem quot_eq_mean (e : Vec Ideal S1000x65 .f32) (x : Vec Ideal S512x1000 .f32)
    (flags : (⟨2, ![16384, 1000]⟩ : Shape).Idx → EReal) (emb : (⟨2, ![1000, 64]⟩ : Shape).Idx → EReal)
    (R : Fin 16384) (r : Fin 512) (hx : ∀ k : Fin 1000, x (ix2 r k) = flags (ix2 R k))
    (he : ∀ (k : Fin 1000) (q : Fin 64), e (ix2 k (⟨q.val, by omega⟩ : Fin 65)) = emb (ix2 k q))
    (h1 : ∀ k : Fin 1000, e (ix2 k (⟨64, by decide⟩ : Fin 65)) = 1) (q : Fin 64) :
    quot e x (ix2 r q) = G flags emb (ix2 R q) := by
  rw [quot_apply, G_apply]
  unfold mean
  simp only [hx, he, h1, mul_one]

end Cert.KernelIdeal.Stream

end
-- ==== Proof.KernelValue.lean ====
/-
  The idealized kernel's result array after the run, as one function of the two argument arrays.

  Grid point t reads flag rows 2048 t … 2048 t + 2047 (four windows of 512 rows each, window j at block index
  4 t + j) and the whole augmented table, and writes back rows 2048 t … 2048 t + 2047 of the result. Row p of the
  block it writes is computed from flag row 2048 t + p alone: it is the specification's row. The eight blocks tile
  the result, so after the last write-back the array is the specification everywhere.
-/
import proofs.«139413_g53163105190342_cont_9to1_m_607_18_alg».proof.Proof.KernelIdealFrame
import proofs.«139413_g53163105190342_cont_9to1_m_607_18_alg».proof.Proof.StreamValue
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Hand Cert.KernelIdeal.Stream Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flags array and the embedding table as launched, on core `c`. -/
abbrev flagsOf (c : Dev nD) : S16384x1000.Idx → EReal := m ((c : Thread nD τ).loc main_arg0)
abbrev embOf (c : Dev nD) : S1000x64.Idx → EReal := m ((c : Thread nD τ).loc main_arg1)

/-! ## The index maps, decided over the grid -/

theorem idx_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 8 := by
  have h := t.isLt; have e : cfg0.N = 8 := N_0; omega

/-- Row `p` of point `t`'s 2048 rows, as a row of the arrays. -/
def rowOf (t : Fin cfg0.N) (p : Fin 2048) : Fin 16384 := ⟨2048 * t.val + p.val, by have := t_lt t; have := p.isLt; omega⟩

/-! ## The table the region finds: the embedding table with a column of ones -/

/-- The column of ones the host appends. -/
abbrev onesCol : S1000x1.Idx → EReal :=
  broadcastInDim S1000x1 ![] bcast_S_S1000x1 (constant (F := Ideal) S_ .f32 0x3F800000#32)

theorem V_table (c : Dev nD) : (V m c main_v1 : S1000x65.Idx → EReal)
    = concatenate S1000x65 1 [⟨S1000x64, embOf m c⟩, ⟨S1000x1, onesCol⟩] concatenates_S1000x64_S1000x1_S1000x65_d1 := by
  dsimp only [V, hostOps0]; after_results

theorem table_emb (c : Dev nD) (k : Fin 1000) (q : Fin 64) :
    V m c main_v1 (ix2 k (⟨q.val, by omega⟩ : Fin 65)) = embOf m c (ix2 k q) :=
  (congrFun (V_table m c) _).trans
    (concatenate_pair_apply_left (t := S1000x65) (s₁ := S1000x64) (s₂ := S1000x1) (1 : Fin 2) (embOf m c) onesCol
      concatenates_S1000x64_S1000x1_S1000x65_d1 (ix2 k (⟨q.val, by omega⟩ : Fin 65)) (rfl : (2 : Nat) = 2) (ix2 k q)
      (fun b => by match b with | ⟨0, _⟩ => rfl | ⟨1, _⟩ => rfl))

theorem table_one (c : Dev nD) (k : Fin 1000) :
    V m c main_v1 (ix2 k (⟨64, by decide⟩ : Fin 65)) = (1 : EReal) :=
  (congrFun (V_table m c) _).trans
    ((concatenate_pair_apply_right (t := S1000x65) (s₁ := S1000x64) (s₂ := S1000x1) (1 : Fin 2) (embOf m c) onesCol
      concatenates_S1000x64_S1000x1_S1000x65_d1 (ix2 k (⟨64, by decide⟩ : Fin 65)) (rfl : (2 : Nat) = 2) (rfl : (2 : Nat) = 2) (ix2 k (0 : Fin 1))
      (fun b hb => by match b with | ⟨0, _⟩ => rfl | ⟨1, _⟩ => exact absurd rfl hb)
      (by show 0 + 64 = 64; rfl)).trans
      (show Ideal.ofBits .f32 0x3F800000#32 = 1 from one_eq))

/-! ## The blocks, read as rows of the arrays -/

/-- The table window's block is the whole table at every point. -/
theorem table_blk (c : Dev nD) (t : Fin cfg0.N) (k : Fin 1000) (q : Fin 65) :
    iblk m c 4 t (ix2 k q) = V m c main_v1 (ix2 k q) := by
  obtain ⟨-, -, -, -, -, -, -, -, e40, e41, -⟩ := idx_facts t
  show V m c main_v1 (((cfg0.win 4).blk t).view.emb (ix2 k q)) = _
  refine congrArg (V m c main_v1) (funext fun a => Fin.ext ?_)
  match a with
  | ⟨0, _⟩ => show win0_4.index t (0 : Fin 2) * 1000 + 1 * k.val = k.val; omega
  | ⟨1, _⟩ => show win0_4.index t (1 : Fin 2) * 65 + 1 * q.val = q.val; omega

theorem flags_blk0 (c : Dev nD) (t : Fin cfg0.N) (r : Fin 512) (k : Fin 1000) :
    iblk m c 0 t (ix2 r k) = flagsOf m c (ix2 (rowOf t ⟨0 + r.val, by omega⟩) k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = 2048 * t.val + (0 + r.val); omega
  | ⟨1, _⟩ => show win0_0.index t (1 : Fin 2) * 1000 + 1 * k.val = k.val; omega
theorem flags_blk1 (c : Dev nD) (t : Fin cfg0.N) (r : Fin 512) (k : Fin 1000) :
    iblk m c 1 t (ix2 r k) = flagsOf m c (ix2 (rowOf t ⟨512 + r.val, by omega⟩) k) := by
  obtain ⟨-, -, e0, e1, -⟩ := idx_facts t
  show V m c main_arg0 (((cfg0.win 1).blk t).view.emb (ix2 r k)) = _
  rw [V_main_arg0]
  refine congrArg (m ((c : Thread nD τ).loc main_arg0)) (funext fun a => Fin.ext ?_)
  match a with
  | ⟨0, _⟩ => show win0_1.index t (0 : Fin 2) * 512 + 1 * r.val = 2048 * t.val + (512 + r.val); omega
  | ⟨1, _⟩ => show win0_1.index t (1 : Fin 2) * 1000 + 1 * k.val = k.val; omega
theorem flags_blk2 (c : Dev nD) (t : Fin cfg0.N) (r : Fin 512) (k : Fin 1000) :
    iblk m c 2 t (ix2 r k) = flagsOf m c (ix2 (rowOf t ⟨1024 + r.val, by omega⟩) k) := by
  obtain ⟨-, -, -, -, e0, e1, -⟩ := idx_facts t
  show V m c main_arg0 (((cfg0.win 2).blk t).view.emb (ix2 r k)) = _
  rw [V_main_arg0]
  refine congrArg (m ((c : Thread nD τ).loc main_arg0)) (funext fun a => Fin.ext ?_)
  match a with
  | ⟨0, _⟩ => show win0_2.index t (0 : Fin 2) * 512 + 1 * r.val = 2048 * t.val + (1024 + r.val); omega
  | ⟨1, _⟩ => show win0_2.index t (1 : Fin 2) * 1000 + 1 * k.val = k.val; omega
theorem flags_blk3 (c : Dev nD) (t : Fin cfg0.N) (r : Fin 512) (k : Fin 1000) :
    iblk m c 3 t (ix2 r k) = flagsOf m c (ix2 (rowOf t ⟨1536 + r.val, by omega⟩) k) := by
  obtain ⟨-, -, -, -, -, -, e0, e1, -⟩ := idx_facts t
  show V m c main_arg0 (((cfg0.win 3).blk t).view.emb (ix2 r k)) = _
  rw [V_main_arg0]
  refine congrArg (m ((c : Thread nD τ).loc main_arg0)) (funext fun a => Fin.ext ?_)
  match a with
  | ⟨0, _⟩ => show win0_3.index t (0 : Fin 2) * 512 + 1 * r.val = 2048 * t.val + (1536 + r.val); omega
  | ⟨1, _⟩ => show win0_3.index t (1 : Fin 2) * 1000 + 1 * k.val = k.val; omega

/-! ## One stream's stored band is the specification's rows -/

/-- A flag block whose row r is flag row `2048 t + off + r` gives, at (r, q), the specification at that row. -/
theorem band_entry (c : Dev nD) (t : Fin cfg0.N) (x : Vec Ideal S512x1000 .f32) (off : Nat) (hoff : off + 512 ≤ 2048)
    (hx : ∀ (r : Fin 512) (k : Fin 1000), x (ix2 r k) = flagsOf m c (ix2 (rowOf t ⟨off + r.val, by omega⟩) k))
    (r : Fin 512) (q : Fin 64) :
    quot (iblk m c 4 t) x (ix2 r q) = G (flagsOf m c) (embOf m c) (ix2 (rowOf t ⟨off + r.val, by omega⟩) q) :=
  quot_eq_mean (iblk m c 4 t) x (flagsOf m c) (embOf m c) (rowOf t ⟨off + r.val, by omega⟩) r (hx r)
    (fun k q => (table_blk m c t k _).trans (table_emb m c k q))
    (fun k => (table_blk m c t k _).trans (table_one m c k)) q

/-! ## What a point writes back -/

theorem hz : (![0, 0] : Fin 2 → Nat) = fun _ => 0 := funext fun a => by fin_cases a <;> rfl

/-- The specification read through point `t`'s block of the result. -/
def Gblk (c : Dev nD) (t : Fin cfg0.N) : S2048x64.Idx → EReal := fun y =>
  G (flagsOf m c) (embOf m c) (((cfg0.win 5).blk t).view.emb y)

/-- Row `p`, column `q` of that block is the specification at row `2048 t + p`. -/
theorem Gblk_apply (c : Dev nD) (t : Fin cfg0.N) (p : Fin 2048) (q : Fin 64) :
    Gblk m c t (ix2 p q) = G (flagsOf m c) (embOf m c) (ix2 (rowOf t p) q) := by
  obtain ⟨-, -, -, -, -, -, -, -, -, -, e0, e1⟩ := idx_facts t
  unfold Gblk
  refine congrArg (G (flagsOf m c) (embOf m c)) (funext fun a => Fin.ext ?_)
  match a with
  | ⟨0, _⟩ => show win0_5.index t (0 : Fin 2) * 2048 + 1 * p.val = 2048 * t.val + p.val; omega
  | ⟨1, _⟩ => show win0_5.index t (1 : Fin 2) * 64 + 1 * q.val = q.val; omega

/-- WHAT POINT `t` WRITES BACK is its block of the specification: each of the four stored bands is. -/
theorem flushed_eq (c : Dev nD) (t : Fin cfg0.N) :
    (dats m 0 c).flushed 5 t = ((cfg0.win 5).blk t).view.read (Elt Ideal) (G (flagsOf m c) (embOf m c)) := by
  show (cfg0.win 5).cut (grid0.coords t) ((dats m 0 c).after 5 t) = _
  rw [after_5]
  funext y
  show outBlock (iblk m c 0 t) (iblk m c 1 t) (iblk m c 2 t) (iblk m c 3 t) (iblk m c 4 t) y = Gblk m c t y
  unfold outBlock
  simp only [View.ld_unit_zero (S := S512x1000) hz, View.ld_unit_zero (S := S1000x65) hz]
  refine View.canon_apply_of_pieces (Val := Elt Ideal) (S := S2048x64) (e := .f32) (Gblk m c t) _ ?_ y (outCover _ _ _ _ y)
  intro p hp x
  simp only [List.mem_cons, List.not_mem_nil, or_false] at hp
  rcases hp with rfl | rfl | rfl | rfl
  · obtain ⟨r, q, rfl⟩ : ∃ (r : Fin 512) (q : Fin 64), x = ix2 r q := ⟨x 0, x 1, eq_ix2 x⟩
    have hidx : rOut3.emb (ix2 r q) = ix2 (⟨1536 + r.val, by omega⟩ : Fin 2048) q := funext fun a => Fin.ext (by
      match a with
      | ⟨0, _⟩ => show 1536 + 1 * r.val = 1536 + r.val; omega
      | ⟨1, _⟩ => show 0 + 1 * q.val = q.val; omega)
    show k0_pay2 (k0_pay3 (iblk m c 4 t)) (iblk m c 3 t) (ix2 r q) = Gblk m c t (rOut3.emb (ix2 r q))
    rw [hidx, pay2_eq, Gblk_apply]
    exact band_entry m c t (iblk m c 3 t) 1536 (by omega) (flags_blk3 m c t) r q
  · obtain ⟨r, q, rfl⟩ : ∃ (r : Fin 512) (q : Fin 64), x = ix2 r q := ⟨x 0, x 1, eq_ix2 x⟩
    have hidx : rOut2.emb (ix2 r q) = ix2 (⟨1024 + r.val, by omega⟩ : Fin 2048) q := funext fun a => Fin.ext (by
      match a with
      | ⟨0, _⟩ => show 1024 + 1 * r.val = 1024 + r.val; omega
      | ⟨1, _⟩ => show 0 + 1 * q.val = q.val; omega)
    show k0_pay1 (k0_pay7 (iblk m c 4 t) (iblk m c 2 t)) (k0_pay8 (iblk m c 4 t) (iblk m c 2 t)) (Scalar.ofBits .f32 0x3F800000#32) (ix2 r q) = Gblk m c t (rOut2.emb (ix2 r q))
    rw [hidx, pay1_eq, Gblk_apply]
    exact band_entry m c t (iblk m c 2 t) 1024 (by omega) (flags_blk2 m c t) r q
  · obtain ⟨r, q, rfl⟩ : ∃ (r : Fin 512) (q : Fin 64), x = ix2 r q := ⟨x 0, x 1, eq_ix2 x⟩
    have hidx : rOut1.emb (ix2 r q) = ix2 (⟨512 + r.val, by omega⟩ : Fin 2048) q := funext fun a => Fin.ext (by
      match a with
      | ⟨0, _⟩ => show 512 + 1 * r.val = 512 + r.val; omega
      | ⟨1, _⟩ => show 0 + 1 * q.val = q.val; omega)
    show k0_pay5 (iblk m c 4 t) (iblk m c 1 t) (ix2 r q) = Gblk m c t (rOut1.emb (ix2 r q))
    rw [hidx, pay5_eq, Gblk_apply]
    exact band_entry m c t (iblk m c 1 t) 512 (by omega) (flags_blk1 m c t) r q
  · obtain ⟨r, q, rfl⟩ : ∃ (r : Fin 512) (q : Fin 64), x = ix2 r q := ⟨x 0, x 1, eq_ix2 x⟩
    have hidx : rOut0.emb (ix2 r q) = ix2 (⟨0 + r.val, by omega⟩ : Fin 2048) q := funext fun a => Fin.ext (by
      match a with
      | ⟨0, _⟩ => show 0 + 1 * r.val = 0 + r.val; omega
      | ⟨1, _⟩ => show 0 + 1 * q.val = q.val; omega)
    show k0_pay4 (iblk m c 4 t) (iblk m c 0 t) (ix2 r q) = Gblk m c t (rOut0.emb (ix2 r q))
    rw [hidx, pay4_eq, Gblk_apply]
    exact band_entry m c t (iblk m c 0 t) 0 (by omega) (flags_blk0 m c t) r q

/-! ## The eight blocks tile the result -/

theorem mem_blk (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v2).slice (win0_5.rect t)).set ↔ _
  rw [View.set_slice_whole, Rect.mem_set_unit]
  exact Iff.rfl

/-- Row R lies in the block of point R / 2048. -/
theorem covered (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 8 := N_0
  let t : Fin cfg0.N := ⟨(i 0).val / 2048, by omega⟩
  obtain ⟨-, -, -, -, -, -, -, -, -, -, e0, e1⟩ := idx_facts t
  have et : t.val = (i 0).val / 2048 := rfl
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 64 ≤ (i 1).val ∧ (i 1).val < win0_5.index t (1 : Fin 2) * 64 + 64; omega

/-- THE RESULT ARRAY after the run is the specification of the argument arrays as launched. -/
theorem final (c : Dev nD) : (dats m 0 c).arrAt 5 cfg0.N = G (flagsOf m c) (embOf m c) :=
  (dats m 0 c).arrAt_eq_of_cover 5 (G (flagsOf m c) (embOf m c)) (fun t _ => flushed_eq m c t) covered

/-! ## The run, read -/

/-- Every weakly fair execution of the idealized kernel's program terminates with the result array at the
    specification of the launch contents of the two arguments, and the arguments unchanged. -/
theorem run : θ_run defs (onTc (τ := τ) (main (F := Ideal))) ⟨m, fun _ => 0, ρ⟩ fun r => ∀ c : Dev nD,
      r.2.mem ((c.tc : Thread nD τ).loc main_v2) = G (flagsOf m c) (embOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 5).trans (final m c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c)⟩) (run_main m ρ)

/-- info: 'Cert.KernelIdeal.Whole.run' depends on axioms: [propext, Classical.choice, Quot.sound] -/
#guard_msgs in #print axioms run

end Cert.KernelIdeal.Whole

end
-- ==== Proof.RefStages.lean ====
/-
  The reference's result, stage by stage, is the specification.

  The reference forms the 0/1 weights of the whole flags array, sums each row (the count), multiplies the weights
  by the table (the weighted sums), divides by the count clamped at one and returns zero where the count is not
  positive. Read at an entry (R, q) that is `if 0 < count R then mean else 0`, which is the mean.
-/
import proofs.«139413_g53163105190342_cont_9to1_m_607_18_alg».proof.Proof.RefReadPatched
import proofs.«139413_g53163105190342_cont_9to1_m_607_18_alg».proof.Proof.Spec

noncomputable section

namespace Cert.ReferenceIdeal.Stages

open Cert.ReferenceIdeal Cert.ReferenceIdeal.Gen Cert.ReferenceIdeal.ReadP Cert.Spec
open Idealize.ShloMosaic Idealize.ShloMosaic.ValueIdx

variable (x0 : (⟨S16384x1000, .f32⟩ : BufTy).Contents (Elt Ideal)) (x1 : (⟨S1000x64, .f32⟩ : BufTy).Contents (Elt Ideal))

/-- The weights, at an entry. -/
theorem weight_apply (j : S16384x1000.Idx) : val_main_v2 (F := Ideal) x0 j = μ (x0 j) := by
  rw [val_main_v2_apply, val_main_v1_apply, val_main_v0_apply, val_main_cst_apply]
  exact uitofp_cmp (x0 j)

/-- The count of row R. -/
theorem count_apply (j : S16384x1.Idx) (R : Fin 16384) (hR : (j 0).val = R.val) :
    val_main_v4 (F := Ideal) x0 j = ∑ k : Fin 1000, μ (x0 (ix2 R k)) := by
  rw [val_main_v4_apply, val_main_v3_apply, val_main_cst_0_apply]
  show Ideal.ofBits .f32 0x00000000#32 + _ = _
  rw [Ideal.ofBits_zero_f32, zero_add]
  refine Finset.sum_congr rfl fun k _ => ?_
  rw [weight_apply]
  refine congrArg (fun z => μ (x0 z)) (funext fun a => Fin.ext ?_)
  match a with
  | ⟨0, _⟩ => exact hR
  | ⟨1, _⟩ => rfl

/-- The weighted sum at (R, q). -/
theorem sums_apply (i : S16384x64.Idx) (R : Fin 16384) (q : Fin 64) (hR : (i 0).val = R.val) (hq : (i 1).val = q.val) :
    val_main_v5 (F := Ideal) x0 x1 i = ∑ k : Fin 1000, μ (x0 (ix2 R k)) * x1 (ix2 k q) := by
  rw [val_main_v5_apply]
  refine Finset.sum_congr rfl fun k _ => ?_
  rw [weight_apply]
  have el : lidx_main_v5 i k = ix2 R k := funext fun a => Fin.ext (by
    match a with
    | ⟨0, _⟩ => exact hR
    | ⟨1, _⟩ => rfl)
  have er : ridx_main_v5 i k = ix2 k q := funext fun a => Fin.ext (by
    match a with
    | ⟨0, _⟩ => rfl
    | ⟨1, _⟩ => exact hq)
  rw [el, er]

/-- THE REFERENCE'S RESULT is the specification of its two arguments. -/
theorem result_eq : val_main_v13 (F := Ideal) x0 x1 = G x0 x1 := by
  funext i
  obtain ⟨R, q, rfl⟩ : ∃ (R : Fin 16384) (q : Fin 64), i = ix2 R q := ⟨i 0, i 1, eq_ix2 i⟩
  rw [val_main_v13_apply, val_main_call0_v0_apply, val_main_v7_apply, val_main_v11_apply, val_main_v10_apply, val_main_v9_apply,
    val_main_v12_apply, val_main_cst_3_apply, val_main_v6_apply, val_main_cst_1_apply, val_main_v8_apply, val_main_cst_2_apply,
    count_apply x0 _ R rfl, sums_apply x0 x1 _ R q rfl rfl, G_apply]
  show Scalar.select (Ideal.cmp .ogt (∑ k : Fin 1000, μ (x0 (ix2 R k))) (Ideal.ofBits .f32 0x00000000#32))
      (Ideal.div (∑ k : Fin 1000, μ (x0 (ix2 R k)) * x1 (ix2 k q)) (max (∑ k : Fin 1000, μ (x0 (ix2 R k))) (Ideal.ofBits .f32 0x3F800000#32)))
      (Ideal.ofBits .f32 0x00000000#32) = _
  rw [Ideal.ofBits_zero_f32, one_eq, ← where_pos_eq_mean]
  unfold Ideal.cmp mean
  by_cases h : 0 < ∑ k : Fin 1000, μ (x0 (ix2 R k))
  · rw [if_pos h]; simp [h, Scalar.select]
  · rw [if_neg h]; simp [h, Scalar.select]

end Cert.ReferenceIdeal.Stages

end
-- ==== Proof.lean ====
/-
  The kernel computes, for each of 16384 rows of flags, the mean of the embedding-table rows whose flag exceeds one
  half (zero if none does), and so does the reference. Both are shown to end with the result array at ONE function
  of the two argument arrays, `Cert.Spec.G`: entry (R, q) is the weighted sum of table column q over the clamped count
  of row R.

  The kernel appends a column of ones to the table so that one matrix product gives sums and counts together, and
  reads the flags through four windows on the same array, 512 rows each, eight grid points of 2048 rows; its
  division by max(count, 1) needs no special case, because a row with no flag set has all weights zero and hence sum
  zero. The reference computes the count by a row sum, the sums by a product with the table itself, and selects zero
  where the count is not positive; that selection changes nothing (`Cert.Spec.where_pos_eq_mean`). No finiteness of the
  inputs is used: the precondition is never opened.

  Frames: each kernel program's run is built on the launch theorem for windows that share an array
  (Proof/LibSharedFrame.lean), the body's triple by symbolic execution, the flags array's share dealt in quarters;
  the reference's frame is its run with the result dropped. The idealization rewrote nothing, so it is trivially
  sanctioned.
-/
import proofs.«139413_g53163105190342_cont_9to1_m_607_18_alg».proof.Defs
import proofs.«139413_g53163105190342_cont_9to1_m_607_18_alg».proof.Proof.Gen.Kernel
import proofs.«139413_g53163105190342_cont_9to1_m_607_18_alg».proof.Proof.Gen.KernelIdeal
import proofs.«139413_g53163105190342_cont_9to1_m_607_18_alg».proof.Proof.Gen.ReferenceIdeal
import proofs.«139413_g53163105190342_cont_9to1_m_607_18_alg».proof.Proof.Gen.Pre_finite_inputs
import proofs.«139413_g53163105190342_cont_9to1_m_607_18_alg».proof.Proof.KernelFrame
import proofs.«139413_g53163105190342_cont_9to1_m_607_18_alg».proof.Proof.KernelValue
import proofs.«139413_g53163105190342_cont_9to1_m_607_18_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at `Cert.Spec.G` of the (agreeing) argument arrays. -/
theorem algebraic : Cert.algebraic_KernelIdeal_ReferenceIdeal := by
  intro m ρ m' ρ' _ hagree
  refine ⟨fun c => Cert.Spec.G (Cert.KernelIdeal.Whole.flagsOf m c) (Cert.KernelIdeal.Whole.embOf m c),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, Cert.ReferenceIdeal.Stages.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
